-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S3x256 : Shape := ⟨2, ![3, 256]⟩
abbrev S64x3 : Shape := ⟨2, ![64, 3]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3x256 : S_.BroadcastsInDim S3x256 (![] : Fin 0 → Fin S3x256.rank)
  reducesTo_S3x256_S_d0_1 : S3x256.ReducesTo [0, 1] S_
  bcast_S_S64x3 : S_.BroadcastsInDim S64x3 (![] : Fin 0 → Fin S64x3.rank)
  reducesTo_S64x3_S_d0_1 : S64x3.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x256 .f32) (main_arg1 : IVec S2x1600000 32) (main_arg2 : FVec F S3x256 .f32) (main_arg3 : FVec F S64x3 .f32) (main_arg4 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3x256 .f32 := Host.absf main_arg2
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  let main_c_1 : IVec S_ 1 := constantI S_ 1 1#1
  let main_v7 : IVec S_ 1 := (fun x v => Host.reduce IntOp.andi x v reducesTo_S3x256_S_d0_1 h_S_) main_v6 main_c_1
  let main_v8 : IVec S_ 1 := andi main_v3 main_v7
  let main_v9 : FVec F S64x3 .f32 := Host.absf main_arg3
  let main_cst_2 : FVec F S_ .f32 := constant S_ .f32 0x7F800000#32
  let main_v10 : FVec F S64x3 .f32 := broadcastInDim S64x3 ![] bcast_S_S64x3 main_cst_2
  let main_v11 : IVec S64x3 1 := cmpf .olt main_v9 main_v10
  let main_c_3 : IVec S_ 1 := constantI S_ 1 1#1
  let main_v12 : IVec S_ 1 := (fun x v => Host.reduce IntOp.andi x v reducesTo_S64x3_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x256 : Shape := ⟨2, ![100000, 256]⟩
abbrev S2x1600000 : Shape := ⟨2, ![2, 1600000]⟩
abbrev S3x256 : Shape := ⟨2, ![3, 256]⟩
abbrev S64x3 : Shape := ⟨2, ![64, 3]⟩
abbrev S64 : Shape := ⟨1, ![64]⟩
abbrev S256x3 : Shape := ⟨2, ![256, 3]⟩
abbrev S3x64 : Shape := ⟨2, ![3, 64]⟩
abbrev S256x64 : Shape := ⟨2, ![256, 64]⟩
abbrev S100000x64 : Shape := ⟨2, ![100000, 64]⟩
abbrev S10000x256 : Shape := ⟨2, ![10000, 256]⟩
abbrev S10000x64 : Shape := ⟨2, ![10000, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 72
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S3x256, .f32⟩
  | .hbm, ⟨3, _⟩ => ⟨S64x3, .f32⟩
  | .hbm, ⟨4, _⟩ => ⟨S64, .f32⟩
  | .hbm, ⟨5, _⟩ => ⟨S256x3, .f32⟩
  | .hbm, ⟨6, _⟩ => ⟨S3x64, .f32⟩
  | .hbm, ⟨7, _⟩ => ⟨S256x64, .f32⟩
  | .hbm, ⟨8, _⟩ => ⟨S100000x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1600000, .i1⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S_, .f32⟩
  | .hbm, ⟨45, _⟩ => ⟨S_, .f32⟩
  | .hbm, ⟨46, _⟩ => ⟨S1600000, .f32⟩
  | .hbm, ⟨47, _⟩ => ⟨S1600000, .f32⟩
  | .hbm, ⟨48, _⟩ => ⟨S1600000x1, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S1600000x64, .f32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S100000, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .local _ .vmem, ⟨0, _⟩ => ⟨S10000x256, .f32⟩
  | .local _ .vmem, ⟨1, _⟩ => ⟨S10000x256, .f32⟩
  | .local _ .vmem, ⟨2, _⟩ => ⟨S256x64, .f32⟩
  | .local _ .vmem, ⟨3, _⟩ => ⟨S10000x64, .f32⟩
  | .local _ .vmem, ⟨4, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S3x256_S256x3_1_0 : S3x256.Transposes [1, 0] S256x3
  transposes_S64x3_S3x64_1_0 : S64x3.Transposes [1, 0] S3x64
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S10000x64_S10000x64_0_0 : ∀ a, (![0, 0] : Fin 2 → Nat) a + S10000x64.size a ≤ S10000x64.size a
  h_S10000x64 : 0 < S10000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S256x3_S3x64_S256x64_1_0_0_1_n_n_wf : DotDims.WF S256x3 S3x64 S256x64 [1] [0] [0] [1] [] []
  dot_S10000x256_S256x64_S10000x64_1_0_0_1_n_n_wf : DotDims.WF S10000x256 S256x64 S10000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)

variable [Facts₀]

def dot_S256x3_S3x64_S256x64_1_0_0_1_n_n : DotDims S256x3 S3x64 S256x64 where
  lhsContracting := [1]
  rhsContracting := [0]
  lhsNonContracting := [0]
  rhsNonContracting := [1]
  lhsBatch := []
  rhsBatch := []
  wf := dot_S256x3_S3x64_S256x64_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S3x256 : Shape := ⟨2, ![3, 256]⟩
abbrev S64x3 : Shape := ⟨2, ![64, 3]⟩
abbrev S64 : Shape := ⟨1, ![64]⟩
abbrev S256x3 : Shape := ⟨2, ![256, 3]⟩
abbrev S100000x3 : Shape := ⟨2, ![100000, 3]⟩
abbrev S3x64 : Shape := ⟨2, ![3, 64]⟩
abbrev S100000x64 : Shape := ⟨2, ![100000, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 72
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S3x256, .f32⟩
  | .hbm, ⟨3, _⟩ => ⟨S64x3, .f32⟩
  | .hbm, ⟨4, _⟩ => ⟨S64, .f32⟩
  | .hbm, ⟨5, _⟩ => ⟨S256x3, .f32⟩
  | .hbm, ⟨6, _⟩ => ⟨S100000x3, .f32⟩
  | .hbm, ⟨7, _⟩ => ⟨S3x64, .f32⟩
  | .hbm, ⟨8, _⟩ => ⟨S100000x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1600000, .i1⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S_, .f32⟩
  | .hbm, ⟨45, _⟩ => ⟨S_, .f32⟩
  | .hbm, ⟨46, _⟩ => ⟨S1600000, .f32⟩
  | .hbm, ⟨47, _⟩ => ⟨S1600000, .f32⟩
  | .hbm, ⟨48, _⟩ => ⟨S1600000x1, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S1600000x64, .f32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S100000, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]

class Facts₀ : Prop where
  transposes_S3x256_S256x3_1_0 : S3x256.Transposes [1, 0] S256x3
  transposes_S64x3_S3x64_1_0 : S64x3.Transposes [1, 0] S3x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x3_S100000x3_1_0_0_1_n_n_wf : DotDims.WF S100000x256 S256x3 S100000x3 [1] [0] [0] [1] [] []
  dot_S100000x3_S3x64_S100000x64_1_0_0_1_n_n_wf : DotDims.WF S100000x3 S3x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x3_S100000x3_1_0_0_1_n_n : DotDims S100000x256 S256x3 S100000x3 where
  lhsContracting := [1]
  rhsContracting := [0]
  lhsNonContracting := [0]
  rhsNonContracting := [1]
  lhsBatch := []
  rhsBatch := []
  wf := dot_S100000x256_S256x3_S100000x3_1_0_0_1_n_n_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.KernelBlocks.lean ====
/-
  The kernel's array of projected features, read.

  The pallas_call walks ten grid points; point t loads rows 10000·t … 10000·t + 9999 of x (all 256 columns) and the
  whole 256×64 matrix W, multiplies them and writes rows 10000·t … 10000·t + 9999 of the result (all 64 columns).
  So block t of the result is the same rows of the ONE function
      (i, j) ↦ Σ_{k < 256} x(i,k) · W(k,j),
  and the ten blocks cover the 100000 rows: the result array holds that function of the arrays the region finds.
  The matrix W is what the host lines before the region leave: W_Bᵀ · W_Aᵀ.
-/
import proofs.«173440_j41918880809105_2_alg».proof.Proof.Gen.KernelIdeal.Frame
import proofs.«173440_j41918880809105_2_alg».proof.Proof.LibDense
import Idealize.ShloMosaic.Lib.Pipeline.Value
import Idealize.ShloMosaic.Lib.ValueIdx
import Idealize.ShloMosaic.Lib.StableHlo.Run

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- Rows of X against columns of W: the plain matrix product, entry by entry. -/
def rowsTimes (X : S100000x256.Idx → EReal) (W : S256x64.Idx → EReal) : S100000x64.Idx → EReal :=
  fun i => ∑ k : Fin 256, X (ix2 (⟨(i 0).val, idx2_lt0 i⟩ : Fin 100000) k) * W (ix2 k (⟨(i 1).val, idx2_lt1 i⟩ : Fin 64))

theorem rowsTimes_apply (X : S100000x256.Idx → EReal) (W : S256x64.Idx → EReal) (a : Fin 100000) (b : Fin 64) :
    rowsTimes X W (ix2 a b) = ∑ k : Fin 256, X (ix2 a k) * W (ix2 k b) := rfl

/-- What the body stores, at entry (p, q) of its block: row p of the loaded block of x against column q of the loaded
    W. (Narrowing the operands to bf16 changes nothing at the ideal values, and the product accumulates into zero.) -/
theorem payload_apply (x0 : Vec Ideal S10000x256 .f32) (x1 : Vec Ideal S256x64 .f32) (p : Fin 10000) (q : Fin 64) :
    k0_pay1 (F := Ideal) x0 x1 (ix2 p q) = ∑ k : Fin 256, x0 (ix2 p k) * x1 (ix2 k q) := by
  show matmul dot_S10000x256_S256x64_S10000x64_1_0_0_1_n_n none (truncf (F := Ideal) .bf16 (x0 : FVec Ideal S10000x256 .f32) _)
      (truncf (F := Ideal) .bf16 (shapeCast S256x64 (x1 : FVec Ideal S256x64 .f32) _ : FVec Ideal S256x64 .f32) _)
      (constant (F := Ideal) S10000x64 .f32 0x00000000#32) (ix2 p q) = _
  rw [shapeCast_self]
  exact Cert.Dense.matmul_plain_apply Facts₀.dot_S10000x256_S256x64_S10000x64_1_0_0_1_n_n_wf _ _ p q

theorem hz : (![0, 0] : Fin 2 → Nat) = fun _ => 0 := funext fun a => by fin_cases a <;> rfl

/-- The printed index maps, decided over the ten points: x and the result move down one block of rows per point, W
    stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_ten (t : Fin cfg0.N) : t.val < 10 := N_0 ▸ t.isLt

variable (m : (ℓ : Loc nD τ sig) → Buf (Elt Ideal) ℓ)

/-- WHAT POINT t WRITES BACK is block t of the product of the arrays the region finds. -/
theorem flushed_eq (c : Dev nD) (t : Fin cfg0.N) :
    (dats m 0 c).flushed 2 t
      = ((cfg0.win 2).blk t).view.read (Elt Ideal) (rowsTimes (V m c main_arg0) (V m c main_v2)) := by
  show (cfg0.win 2).cut (grid0.coords t) ((dats m 0 c).after 2 t) = _
  rw [after0_2]
  unfold out0_2
  rw [View.canon_unit_zero hz]
  simp only [View.ld_unit_zero (S := S10000x256) hz, View.ld_unit_zero (S := S256x64) hz]
  obtain ⟨e0, e1, e2, e3, e4, e5⟩ := idx_facts t
  have ht := lt_ten t
  funext y
  obtain ⟨p, q, rfl⟩ : ∃ (p : Fin 10000) (q : Fin 64), y = ix2 p q := ⟨y 0, y 1, eq_ix2 y⟩
  show k0_pay1 (F := Ideal) (iblk m c 0 t) (iblk m c 1 t) (ix2 p q)
    = rowsTimes (V m c main_arg0) (V m c main_v2) (((cfg0.win 2).blk t).view.emb (ix2 p q))
  refine (payload_apply (iblk m c 0 t) (iblk m c 1 t) p q).trans ?_
  have h2 : ((cfg0.win 2).blk t).view.emb (ix2 p q) = ix2 (⟨t.val * 10000 + p.val, by omega⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  rw [h2, rowsTimes_apply]
  refine Finset.sum_congr rfl fun k _ => ?_
  have h0 : ((cfg0.win 0).blk t).view.emb (ix2 p k) = ix2 (⟨t.val * 10000 + p.val, by omega⟩ : Fin 100000) k := by
    funext a; apply Fin.ext
    match a with
    | ⟨0, _⟩ => show win0_0.index t (0 : Fin 2) * 10000 + 1 * p.val = t.val * 10000 + p.val; omega
    | ⟨1, _⟩ => show win0_0.index t (1 : Fin 2) * 256 + 1 * k.val = k.val; omega
  have h1 : ((cfg0.win 1).blk t).view.emb (ix2 k q) = ix2 k q := by
    funext a; apply Fin.ext
    match a with
    | ⟨0, _⟩ => show win0_1.index t (0 : Fin 2) * 256 + 1 * k.val = k.val; omega
    | ⟨1, _⟩ => show win0_1.index t (1 : Fin 2) * 64 + 1 * q.val = q.val; omega
  have hx : (iblk m c 0 t (ix2 p k) : EReal)
      = (V m c main_arg0 : S100000x256.Idx → EReal) (ix2 (⟨t.val * 10000 + p.val, by omega⟩ : Fin 100000) k) := by
    show V m c main_arg0 (((cfg0.win 0).blk t).view.emb (ix2 p k)) = _
    rw [h0]
  have hw : (iblk m c 1 t (ix2 k q) : EReal) = (V m c main_v2 : S256x64.Idx → EReal) (ix2 k q) := by
    show V m c main_v2 (((cfg0.win 1).blk t).view.emb (ix2 k q)) = _
    rw [h1]
  rw [hx, hw]

/-- An index of the array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v3).slice (win0_2.rect t)).set ↔ _
  rw [View.set_slice_whole, Rect.mem_set_unit]
  exact Iff.rfl

/-- Every row lies in the block of the point numbered by its ten-thousands. -/
theorem covered (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  have hN : cfg0.N = 10 := N_0
  refine ⟨⟨(i 0).val / 10000, by omega⟩, flush0_2 _, ?_⟩
  obtain ⟨-, -, -, -, e4, e5⟩ := idx_facts ⟨(i 0).val / 10000, by omega⟩
  rw [mem_blk]
  intro a
  match a with
  | ⟨0, _⟩ => show win0_2.index ⟨(i 0).val / 10000, _⟩ (0 : Fin 2) * 10000 ≤ (i 0).val ∧ (i 0).val < win0_2.index ⟨(i 0).val / 10000, _⟩ (0 : Fin 2) * 10000 + 10000; rw [e4]; show (i 0).val / 10000 * 10000 ≤ (i 0).val ∧ (i 0).val < (i 0).val / 10000 * 10000 + 10000; omega
  | ⟨1, _⟩ => show win0_2.index ⟨(i 0).val / 10000, _⟩ (1 : Fin 2) * 64 ≤ (i 1).val ∧ (i 1).val < win0_2.index ⟨(i 0).val / 10000, _⟩ (1 : Fin 2) * 64 + 64; rw [e5]; omega

/-- THE ARRAY after the region: the product of the arrays the region finds. -/
theorem projected (c : Dev nD) :
    (dats m 0 c).arrAt 2 cfg0.N = rowsTimes (V m c main_arg0) (V m c main_v2) :=
  (dats m 0 c).arrAt_eq_of_cover 2 (rowsTimes (V m c main_arg0) (V m c main_v2)) (fun t _ => flushed_eq m c t) covered

/-- The matrix the region finds in its second window: the host lines before it multiply the two transposed factors. -/
theorem folded (c : Dev nD) :
    (V m c main_v2 : S256x64.Idx → EReal)
      = Host.dotGeneral (F := Ideal) dot_S256x3_S3x64_S256x64_1_0_0_1_n_n none
          (transpose S256x3 [1, 0] (m ((c : Thread nD τ).loc main_arg2) : FVec Ideal S3x256 .f32)
            Facts₀.transposes_S3x256_S256x3_1_0 : FVec Ideal S256x3 .f32)
          (transpose S3x64 [1, 0] (m ((c : Thread nD τ).loc main_arg3) : FVec Ideal S64x3 .f32)
            Facts₀.transposes_S64x3_S3x64_1_0 : FVec Ideal S3x64 .f32) := by
  show StableHlo.after hostOps0 (fun b => m (c, b)) (Proc.devRef .tc main_v2) = _
  after_results <;> rfl

end Cert.KernelIdeal.Blocks

end
-- ==== Proof.Propagate.lean ====
/-
  The degree-normalised propagation that both programs apply to the projected node features, as ONE function of
  the features h (one row of 64 per node), the edge list e (row 0 the source nodes, row 1 the target nodes) and the
  bias b:

    keep_j   = (source_j ≠ target_j)                                  -- a self loop in the list is dropped
    deg_n    = #{ j | target_j = n, keep_j } + 1                      -- one self loop is added for every node
    dinv_n   = deg_n ^ (-1/2)
    weight_j = if keep_j then dinv(source_j) · dinv(target_j) else 0
    out_n    = Σ_{j : target_j = n} weight_j · h(source_j)  +  dinv_n² · h_n  +  b

  written with the host operations in which both programs spell it (a negative node number counts from the end, as
  in jnp indexing; the sums over edges are accumulating scatters). The two programs differ only in how they
  compute h, so the function is never opened: it is applied to equal arguments.
-/
import proofs.«173440_j41918880809105_2_alg».proof.ReferenceIdeal

noncomputable section

namespace Cert.Bridge

open Idealize.ShloMosaic Cert.ReferenceIdeal

variable {F : FTy → Type} [FloatOps F] [Cert.ReferenceIdeal.Facts]
open Cert.ReferenceIdeal.Facts₀ Cert.ReferenceIdeal.Facts

/-- The source node of every edge. -/
def sources (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The target node of every edge. -/
def targets (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- Which edges are kept: those that are not self loops. -/
def kept (e : (⟨S2x1600000, .i32⟩ : BufTy).Contents (Elt F)) : (⟨S1600000, .i1⟩ : BufTy).Contents (Elt F) :=
  cmpi .ne (sources (F := F) e) (targets (F := F) e)

/-- deg ^ (-1/2), the degree of a node being its kept incoming edges plus one. -/
def dinv (e : (⟨S2x1600000, .i32⟩ : BufTy).Contents (Elt F)) : (⟨S100000, .f32⟩ : BufTy).Contents (Elt F) :=
  Host.powf (addf (Host.scatterAdd scatter_S100000_S1600000x1_S1600000_n_0_0_1
      (broadcastInDim S100000 ![] bcast_S_S100000 (constant S_ .f32 0x00000000#32))
      (broadcastInDim S1600000x1 ![0] bcast_S1600000_S1600000x1_0 (targets (F := F) e))
      (uitofp .f32 (kept (F := F) e)))
    (broadcastInDim S100000 ![] bcast_S_S100000 (constant S_ .f32 0x3F800000#32)))
    (broadcastInDim S100000 ![] bcast_S_S100000 (constant S_ .f32 0xBF000000#32))

/-- A node number read as jnp reads an index: a negative one counts from the end. -/
def wrapped (v : (⟨S1600000, .i32⟩ : BufTy).Contents (Elt F)) : (⟨S1600000, .i32⟩ : BufTy).Contents (Elt F) :=
  select (cmpi .slt v (broadcastInDim S1600000 ![] bcast_S_S1600000 (constantI S_ 32 0#32)))
    (addi v (broadcastInDim S1600000 ![] bcast_S_S1600000 (constantI S_ 32 100000#32))) v

/-- The weight of every edge: dinv(source) · dinv(target) on a kept edge, zero on a self loop. -/
def weights (e : (⟨S2x1600000, .i32⟩ : BufTy).Contents (Elt F)) : (⟨S1600000, .f32⟩ : BufTy).Contents (Elt F) :=
  select (kept (F := F) e)
    (mulf (Host.gather gather_S100000_S1600000x1_S1600000_n_0_n_n_0_1_1 (dinv (F := F) e)
        (broadcastInDim S1600000x1 ![0] bcast_S1600000_S1600000x1_0 (wrapped (F := F) (sources (F := F) e))))
      (Host.gather gather_S100000_S1600000x1_S1600000_n_0_n_n_0_1_1 (dinv (F := F) e)
        (broadcastInDim S1600000x1 ![0] bcast_S1600000_S1600000x1_0 (wrapped (F := F) (targets (F := F) e)))))
    (broadcastInDim S1600000 ![] bcast_S_S1600000 (id (constant S_ .f32 0x00000000#32)))

/-- The propagation: every node receives the weighted features of the sources of its incoming edges, its own
    features scaled by dinv², and the bias. -/
def propagate (h : (⟨S100000x64, .f32⟩ : BufTy).Contents (Elt F)) (e : (⟨S2x1600000, .i32⟩ : BufTy).Contents (Elt F))
    (b : (⟨S64, .f32⟩ : BufTy).Contents (Elt F)) : (⟨S100000x64, .f32⟩ : BufTy).Contents (Elt F) :=
  addf (addf (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 (targets (F := F) e))
      (mulf (broadcastInDim S1600000x64 ![0, 1] bcast_S1600000x1_S1600000x64_0_1
          (broadcastInDim S1600000x1 ![0] bcast_S1600000_S1600000x1_0 (weights (F := F) e)))
        (Host.gather gather_S100000x64_S1600000x1_S1600000x64_1_0_n_n_0_1_164 h
          (broadcastInDim S1600000x1 ![0] bcast_S1600000_S1600000x1_0 (wrapped (F := F) (sources (F := F) e))))))
    (mulf (broadcastInDim S100000x64 ![0, 1] bcast_S100000x1_S100000x64_0_1
        (broadcastInDim S100000x1 ![0] bcast_S100000_S100000x1_0 (mulf (dinv (F := F) e) (dinv (F := F) e)))) h))
    (broadcastInDim S100000x64 ![0, 1] bcast_S1x64_S100000x64_0_1 (broadcastInDim S1x64 ![1] bcast_S64_S1x64_1 b))

/-- The reference's projection, the two small factors applied one after the other: (x · W_Bᵀ) · W_Aᵀ. -/
def projectTwice (x : (⟨S100000x256, .f32⟩ : BufTy).Contents (Elt F)) (wb : (⟨S3x256, .f32⟩ : BufTy).Contents (Elt F))
    (wa : (⟨S64x3, .f32⟩ : BufTy).Contents (Elt F)) : (⟨S100000x64, .f32⟩ : BufTy).Contents (Elt F) :=
  Host.dotGeneral dot_S100000x3_S3x64_S100000x64_1_0_0_1_n_n none
    (Host.dotGeneral dot_S100000x256_S256x3_S100000x3_1_0_0_1_n_n none x (transpose S256x3 [1, 0] wb transposes_S3x256_S256x3_1_0))
    (transpose S3x64 [1, 0] wa transposes_S64x3_S3x64_1_0)

end Cert.Bridge

end
-- ==== Proof.KernelTail.lean ====
/-
  The kernel program's result, read: after the region the host lines compute the degree-normalised propagation
  of the array the region wrote, the edge list and the bias — the same lines, in the same order, as the reference's.
-/
import proofs.«173440_j41918880809105_2_alg».proof.Proof.Gen.KernelIdeal.Frame
import proofs.«173440_j41918880809105_2_alg».proof.Proof.Gen.ReferenceIdeal
import proofs.«173440_j41918880809105_2_alg».proof.Proof.Propagate
import Idealize.ShloMosaic.Lib.StableHlo.Run

noncomputable section

namespace Cert.KernelIdeal.Tail

open Idealize.ShloMosaic Idealize.ShloMosaic.TcCoe Idealize.SL.Sem Idealize.ShloMosaic.StableHlo
open Cert.KernelIdeal Cert.KernelIdeal.Gen

variable {F : FTy → Type} [FloatOps F]

set_option maxRecDepth 16384 in
set_option maxHeartbeats 40000000 in
/-- The host lines after the region, run from any contents: the result buffer ends at the propagation of what the
    lines find in the projected-features buffer, the edge-list buffer and the bias buffer. -/
theorem lines_after (Wv : Valuation τ sig (Elt F)) :
    StableHlo.after (List.flatten [hostOps1, hostOps1_1, hostOps1_2]) Wv (Proc.devRef .tc main_v53)
      = Cert.Bridge.propagate (F := F) (Wv (Proc.devRef .tc main_v3)) (Wv (Proc.devRef .tc main_arg1))
          (Wv (Proc.devRef .tc main_arg4)) := by
  simp only [hostOps1, hostOps1_1, hostOps1_2, List.flatten_cons, List.flatten_nil, List.append_nil, List.cons_append,
    List.nil_append]
  after_results_simp
  unfold Cert.Bridge.propagate Cert.Bridge.weights Cert.Bridge.dinv Cert.Bridge.wrapped Cert.Bridge.kept
    Cert.Bridge.sources Cert.Bridge.targets
  rfl

/-- The result buffer after the whole program: the propagation of the array the region leaves in its output
    window, the edge list and the bias as launched. -/
theorem result_after (m : (ℓ : Loc nD τ sig) → Buf (Elt F) ℓ) (c : Dev nD) :
    Pipeline.afterTail₀ cfgs (dats m) 0 (V0 m) [hostOps1, hostOps1_1, hostOps1_2] c main_v53
      = Cert.Bridge.propagate (F := F) ((dats m 0 c).arrAt 2 cfg0.N) (m ((c : Thread nD τ).loc main_arg1))
          (m ((c : Thread nD τ).loc main_arg4)) := by
  unfold Pipeline.afterTail₀
  refine (lines_after _).trans ?_
  refine congr (congr (congrArg (Cert.Bridge.propagate (F := F)) ?_) ?_) ?_
  · exact Pipeline.withArrays_arr spec0 launch0.win.arr_inj c _ _ 2
  · exact (Pipeline.withArrays_of_ne _ c (V0 m c) _ main_arg1
      (by exact (by decide : ∀ w, Pipeline.arrRef spec0 w ≠ main_arg1))).trans (V_main_arg1 m c)
  · exact (Pipeline.withArrays_of_ne _ c (V0 m c) _ main_arg4
      (by exact (by decide : ∀ w, Pipeline.arrRef spec0 w ≠ main_arg4))).trans (V_main_arg4 m c)

end Cert.KernelIdeal.Tail

end
-- ==== Proof.KernelRun.lean ====
/-
  The kernel program's run with its result named: every weakly fair execution ends with the result buffer at the
  propagation of (x times the folded matrix W_Bᵀ · W_Aᵀ), the edge list and the bias, and the arguments as launched.
-/
import proofs.«173440_j41918880809105_2_alg».proof.Proof.KernelBlocks
import proofs.«173440_j41918880809105_2_alg».proof.Proof.KernelTail

noncomputable section

namespace Cert.KernelIdeal.Run

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- What the result buffer holds in the end, as a function of the launch contents. -/
def result (c : Dev nD) : Buf (Elt Ideal) ((c.tc : Thread nD τ).loc main_v53) :=
  Cert.Bridge.propagate (F := Ideal)
    (Cert.KernelIdeal.Blocks.rowsTimes (m ((c : Thread nD τ).loc main_arg0))
      (Host.dotGeneral (F := Ideal) dot_S256x3_S3x64_S256x64_1_0_0_1_n_n none
        (transpose S256x3 [1, 0] (m ((c : Thread nD τ).loc main_arg2) : FVec Ideal S3x256 .f32)
          Facts₀.transposes_S3x256_S256x3_1_0 : FVec Ideal S256x3 .f32)
        (transpose S3x64 [1, 0] (m ((c : Thread nD τ).loc main_arg3) : FVec Ideal S64x3 .f32)
          Facts₀.transposes_S64x3_S3x64_1_0 : FVec Ideal S3x64 .f32)))
    (m ((c : Thread nD τ).loc main_arg1)) (m ((c : Thread nD τ).loc main_arg4))

/-- The result buffer after the host lines that follow the region. -/
theorem result_eq (c : Dev nD) :
    Pipeline.afterTail₀ cfgs (dats m) 0 (V0 m) [hostOps1, hostOps1_1, hostOps1_2] c main_v53 = result m c := by
  rw [Cert.KernelIdeal.Tail.result_after, Cert.KernelIdeal.Blocks.projected, Cert.KernelIdeal.Blocks.folded, V_main_arg0]
  rfl

/-- The frame run with the result named: the result at `result`, the five arguments unchanged (an array a window
    stages keeps its contents because that window is never written back; the others are touched by no line). -/
theorem run : θ_run defs (onTc (τ := τ) (main (F := Ideal))) ⟨m, fun _ => 0, ρ⟩ (fun r => ∀ c : Dev nD,
      r.2.mem ((c.tc : Thread nD τ).loc main_v53) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v53 (Pipeline.mem_restRefs_of main_v53 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.RefSide.lean ====
/-
  The reference, read: its result is the propagation applied to its projection (x · W_Bᵀ) · W_Aᵀ, the edge list and
  the bias; and that projection at entry (i, j) is
      Σ_{r < 3} (Σ_{k < 256} x(i,k) · W_B(r,k)) · W_A(j,r).
-/
import proofs.«173440_j41918880809105_2_alg».proof.Proof.Gen.ReferenceIdeal.Run
import proofs.«173440_j41918880809105_2_alg».proof.Proof.Propagate
import proofs.«173440_j41918880809105_2_alg».proof.Proof.LibDense
import Idealize.ShloMosaic.Lib.Pipeline.Value
import Idealize.ShloMosaic.Lib.ValueIdx

noncomputable section

namespace Cert.Bridge

open Idealize.ShloMosaic Idealize.ShloMosaic.TcCoe Idealize.ShloMosaic.ValueIdx Idealize.SL.Sem
open Cert.ReferenceIdeal
open Cert.ReferenceIdeal.Facts₀ Cert.ReferenceIdeal.Facts

/-- The reference's result, as its run states it, is the propagation of its projection. -/
theorem reference_result {F : FTy → Type} [FloatOps F] (m : (ℓ : Loc nD τ sig) → Buf (Elt F) ℓ) (c : Dev nD) :
    Cert.ReferenceIdeal.Value.res_main_v53 (F := F) m c
      = propagate (F := F)
          (projectTwice (F := F) (m ((c.tc : Thread nD τ).loc main_arg0)) (m ((c.tc : Thread nD τ).loc main_arg2))
            (m ((c.tc : Thread nD τ).loc main_arg3)))
          (m ((c.tc : Thread nD τ).loc main_arg1)) (m ((c.tc : Thread nD τ).loc main_arg4)) := by
  unfold Cert.ReferenceIdeal.Value.res_main_v53 propagate projectTwice weights dinv wrapped kept sources targets
  rfl

/-- W_Bᵀ at (k, r) is W_B at (r, k). -/
theorem transposeB_apply {α : Type} (wb : S3x256.Idx → α) (k : Fin 256) (r : Fin 3) :
    transpose S256x3 [1, 0] wb transposes_S3x256_S256x3_1_0 (ix2 k r) = wb (ix2 r k) :=
  transpose_apply [1, 0] wb transposes_S3x256_S256x3_1_0 _ _ fun b => match b with
    | ⟨0, _⟩ => rfl
    | ⟨1, _⟩ => rfl

/-- W_Aᵀ at (r, j) is W_A at (j, r). -/
theorem transposeA_apply {α : Type} (wa : S64x3.Idx → α) (r : Fin 3) (j : Fin 64) :
    transpose S3x64 [1, 0] wa transposes_S64x3_S3x64_1_0 (ix2 r j) = wa (ix2 j r) :=
  transpose_apply [1, 0] wa transposes_S64x3_S3x64_1_0 _ _ fun b => match b with
    | ⟨0, _⟩ => rfl
    | ⟨1, _⟩ => rfl

/-- The reference's projection at entry (i, j): first the 256 input features against the three rows of W_B, then
    the three results against row j of W_A. -/
theorem projectTwice_apply (x : FVec Ideal S100000x256 .f32) (wb : FVec Ideal S3x256 .f32) (wa : FVec Ideal S64x3 .f32)
    (i : Fin 100000) (j : Fin 64) :
    projectTwice (F := Ideal) x wb wa (ix2 i j)
      = ∑ r : Fin 3, (∑ k : Fin 256, x (ix2 i k) * wb (ix2 r k)) * wa (ix2 j r) := by
  unfold projectTwice
  refine (Cert.Dense.hostDot_plain_apply dot_S100000x3_S3x64_S100000x64_1_0_0_1_n_n_wf _ _ i j).trans ?_
  refine Finset.sum_congr rfl fun r _ => ?_
  rw [transposeA_apply]
  refine congrArg (· * wa (ix2 j r)) ?_
  refine (Cert.Dense.hostDot_plain_apply dot_S100000x256_S256x3_S100000x3_1_0_0_1_n_n_wf _ _ i r).trans ?_
  refine Finset.sum_congr rfl fun k _ => ?_
  rw [transposeB_apply]

end Cert.Bridge

end
-- ==== Proof.LibMatAssoc.lean ====
/-
  A general lemma (Mathlib only): two groupings of a triple product summed over two finite index sets, on the extended
  reals — a matrix product is associative on real entries.

  For families a (over k), b (over k and r) and c (over r) of extended reals that are all real numbers,
      Σ_k a k · (Σ_r b k r · c r)  =  Σ_r (Σ_k a k · b k r) · c r :
  multiplying a row by a matrix that is itself a product, or multiplying by the two factors one after the other.
  Both sides are the double sum Σ_k Σ_r a k · b k r · c r. On the extended reals the step that moves a factor across a
  sum is not valid in general (an infinite factor against summands of both signs), so the entries are taken real and the
  computation is done in ℝ.
-/
import Mathlib.Data.EReal.Basic
import Mathlib.Data.EReal.Operations
import Mathlib.Algebra.BigOperators.Ring.Finset
import Mathlib.Algebra.BigOperators.Group.Finset.Sigma

noncomputable section

namespace Cert.Lib.MatAssoc

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real entries, a row times (a matrix times a column family) is (the row times the matrix) times the family:
    both are the double sum of the triple products. -/
theorem sum_mul_sum_assoc {K R : Type} [Fintype K] [Fintype R] (a : K → EReal) (b : K → R → EReal) (c : R → EReal)
    (ha : ∀ k, ∃ v : ℝ, a k = (v : EReal)) (hb : ∀ k r, ∃ v : ℝ, b k r = (v : EReal)) (hc : ∀ r, ∃ v : ℝ, c r = (v : EReal)) :
    ∑ k, a k * ∑ r, b k r * c r = ∑ r, (∑ k, a k * b k r) * c r := by
  choose a' ha using ha
  choose b' hb using hb
  choose c' hc using hc
  have hl : ∑ k, a k * ∑ r, b k r * c r = ((∑ k, a' k * ∑ r, b' k r * c' r : ℝ) : EReal) := by
    rw [coe_sum]
    refine Finset.sum_congr rfl fun k _ => ?_
    rw [EReal.coe_mul, coe_sum, ha k]
    congr 1
    refine Finset.sum_congr rfl fun r _ => ?_
    rw [EReal.coe_mul, hb k r, hc r]
  have hr : ∑ r, (∑ k, a k * b k r) * c r = ((∑ r, (∑ k, a' k * b' k r) * c' r : ℝ) : EReal) := by
    rw [coe_sum]
    refine Finset.sum_congr rfl fun r _ => ?_
    rw [EReal.coe_mul, coe_sum, hc r]
    congr 1
    refine Finset.sum_congr rfl fun k _ => ?_
    rw [EReal.coe_mul, ha k, hb k r]
  rw [hl, hr]
  congr 1
  simp only [Finset.mul_sum, Finset.sum_mul]
  rw [Finset.sum_comm]
  refine Finset.sum_congr rfl fun r _ => Finset.sum_congr rfl fun k _ => ?_
  ring

end Cert.Lib.MatAssoc

end
-- ==== Proof.Law.lean ====
/-
  The two projections agree on real matrices.

  The kernel multiplies x by the folded matrix W = W_Bᵀ · W_Aᵀ, W(k,j) = Σ_r W_B(r,k) · W_A(j,r); the reference
  multiplies x by W_Bᵀ and the result by W_Aᵀ. Entry (i, j) of the first is Σ_k x(i,k) · Σ_r W_B(r,k) · W_A(j,r), of the
  second Σ_r (Σ_k x(i,k) · W_B(r,k)) · W_A(j,r): the same double sum, for real entries.
-/
import proofs.«173440_j41918880809105_2_alg».proof.Proof.KernelBlocks
import proofs.«173440_j41918880809105_2_alg».proof.Proof.RefSide
import proofs.«173440_j41918880809105_2_alg».proof.Proof.LibMatAssoc

noncomputable section

namespace Cert.Bridge

open Idealize.ShloMosaic Idealize.ShloMosaic.ValueIdx

/-- A transposed matrix at (p, q) is the matrix at (q, p). -/
theorem transpose2_apply {α : Type} {a b : ℕ} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h _ _ fun d => match d with
    | ⟨0, _⟩ => rfl
    | ⟨1, _⟩ => rfl

/-- The folded matrix W_Bᵀ · W_Aᵀ at (k, j). -/
theorem folded_apply (wb : FVec Ideal Cert.KernelIdeal.S3x256 .f32) (wa : FVec Ideal Cert.KernelIdeal.S64x3 .f32)
    (k : Fin 256) (j : Fin 64) :
    Host.dotGeneral (F := Ideal) Cert.KernelIdeal.dot_S256x3_S3x64_S256x64_1_0_0_1_n_n none
        (transpose Cert.KernelIdeal.S256x3 [1, 0] wb Cert.KernelIdeal.Facts₀.transposes_S3x256_S256x3_1_0 : FVec Ideal Cert.KernelIdeal.S256x3 .f32)
        (transpose Cert.KernelIdeal.S3x64 [1, 0] wa Cert.KernelIdeal.Facts₀.transposes_S64x3_S3x64_1_0 : FVec Ideal Cert.KernelIdeal.S3x64 .f32)
        (ix2 k j)
      = ∑ r : Fin 3, wb (ix2 r k) * wa (ix2 j r) := by
  refine (Cert.Dense.hostDot_plain_apply Cert.KernelIdeal.Facts₀.dot_S256x3_S3x64_S256x64_1_0_0_1_n_n_wf _ _ k j).trans ?_
  refine Finset.sum_congr rfl fun r _ => ?_
  rw [transpose2_apply, transpose2_apply]

/-- For real x, W_B and W_A, x times the folded matrix is the reference's projection applied in two steps. -/
theorem projection_agrees (x : FVec Ideal Cert.KernelIdeal.S100000x256 .f32) (wb : FVec Ideal Cert.KernelIdeal.S3x256 .f32)
    (wa : FVec Ideal Cert.KernelIdeal.S64x3 .f32)
    (hx : ∀ i, ∃ v : ℝ, x i = (v : EReal)) (hb : ∀ i, ∃ v : ℝ, wb i = (v : EReal)) (ha : ∀ i, ∃ v : ℝ, wa i = (v : EReal)) :
    Cert.KernelIdeal.Blocks.rowsTimes x
        (Host.dotGeneral (F := Ideal) Cert.KernelIdeal.dot_S256x3_S3x64_S256x64_1_0_0_1_n_n none
          (transpose Cert.KernelIdeal.S256x3 [1, 0] wb Cert.KernelIdeal.Facts₀.transposes_S3x256_S256x3_1_0 : FVec Ideal Cert.KernelIdeal.S256x3 .f32)
          (transpose Cert.KernelIdeal.S3x64 [1, 0] wa Cert.KernelIdeal.Facts₀.transposes_S64x3_S3x64_1_0 : FVec Ideal Cert.KernelIdeal.S3x64 .f32))
      = projectTwice (F := Ideal) x wb wa := by
  funext i
  obtain ⟨a, b, rfl⟩ : ∃ (a : Fin 100000) (b : Fin 64), i = ix2 a b := ⟨i 0, i 1, eq_ix2 i⟩
  rw [Cert.KernelIdeal.Blocks.rowsTimes_apply, projectTwice_apply]
  refine (Finset.sum_congr rfl fun k _ => by rw [folded_apply]).trans ?_
  exact Cert.Lib.MatAssoc.sum_mul_sum_assoc (fun k => x (ix2 a k)) (fun k r => wb (ix2 r k)) (fun r => wa (ix2 b r))
    (fun _ => hx _) (fun _ _ => hb _) (fun _ => ha _)

end Cert.Bridge

end
-- ==== Proof.LibFiniteAll.lean ====
/-
  A general lemma, for a float array of any shape at the extended reals: when the reduction "all entries have absolute
  value strictly below +∞" comes out 1, every entry of the array is a real number. The test takes |x| entry by entry
  (max x (-x)), compares it with +∞ (the pattern 0x7F800000), strictly below, and folds the results with "and" from 1
  over all axes. The fold being 1, every entry's comparison is 1, so max (x i) (-(x i)) < ⊤, so x i is neither ⊤ nor
  ⊥: it is a real number.
-/
import Idealize.ShloMosaic.PureOps.Ideal
import Idealize.ShloMosaic.Lib.ValueIdx
import Idealize.ShloMosaic.Lib.ReduceAll

noncomputable section

namespace Cert.Lib.FiniteAll

open Idealize.ShloMosaic Idealize.ShloMosaic.ValueIdx

/-- The shape with no axes has one index. -/
instance : Subsingleton (⟨0, ![]⟩ : Shape).Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value is strictly below +∞ is a real number. -/
theorem real_of_abs_lt (x : EReal)
    (h : Ideal.cmp .olt (max x (-x)) (Ideal.ofBits .f32 0x7F800000#32) = 1#1) : ∃ r : ℝ, x = (r : EReal) := by
  rw [inf_eq_top] at h
  unfold Ideal.cmp at h
  induction x using EReal.rec with
  | bot => simp at h
  | coe r => exact ⟨r, rfl⟩
  | top => simp at h

/-- The all-of test of one array: when it comes out 1, every entry of the array is a real number. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1)
    (i : s.Idx) : ∃ r : ℝ, x i = (r : EReal) :=
  real_of_abs_lt (x i) (Host.reduce_andi_all _ _ hr hu ix0 e i)

end Cert.Lib.FiniteAll

end
-- ==== Proof.Finite.lean ====
/-
  What the precondition gives: every entry of x, W_B and W_A is a real number.

  The precondition is the conjunction of four "all entries have absolute value below +∞" tests, one per float input,
  joined by "and"; its value being 1, each of the four tests is 1, and a test that is 1 makes every entry of its array
  a real number. (The bias is tested too; the proof never needs it, and the edge list is not constrained.)
-/
import proofs.«173440_j41918880809105_2_alg».proof.Pre_finite_inputs
import proofs.«173440_j41918880809105_2_alg».proof.Proof.LibFiniteAll

noncomputable section

namespace Cert.Bridge

open Idealize.ShloMosaic Idealize.ShloMosaic.ValueIdx Cert.Pre_finite_inputs

variable [Cert.Pre_finite_inputs.Facts]
open Cert.Pre_finite_inputs.Facts

/-- Under the precondition the three matrices that enter the projection have real entries. -/
theorem real_entries (x0 : FVec Ideal S100000x256 .f32) (x1 : IVec S2x1600000 32) (x2 : FVec Ideal S3x256 .f32)
    (x3 : FVec Ideal S64x3 .f32) (x4 : FVec Ideal S64 .f32)
    (h : Cert.Pre_finite_inputs.fn (F := Ideal) x0 x1 x2 x3 x4 = fun _ => 1#1) :
    (∀ i, ∃ r : ℝ, x0 i = (r : EReal)) ∧ (∀ i, ∃ r : ℝ, x2 i = (r : EReal)) ∧ (∀ i, ∃ r : ℝ, x3 i = (r : EReal)) := by
  have h0 := congrFun h ix0
  dsimp only [Cert.Pre_finite_inputs.fn, Cert.Pre_finite_inputs.fn_part1] at h0
  obtain ⟨h123, -⟩ := IntOp.andi_eq_one.1 h0
  obtain ⟨h12, h3⟩ := IntOp.andi_eq_one.1 h123
  obtain ⟨h1, h2⟩ := IntOp.andi_eq_one.1 h12
  exact ⟨fun i => Cert.Lib.FiniteAll.real_of_all x0 _ _ _ h1 i,
    fun i => Cert.Lib.FiniteAll.real_of_all x2 _ _ _ h2 i,
    fun i => Cert.Lib.FiniteAll.real_of_all x3 _ _ _ h3 i⟩

end Cert.Bridge

end
-- ==== Proof.lean ====
/-
  A LoRA projection followed by a degree-normalised graph propagation, against its jnp reference.

  Both programs compute  out = propagate(h, edges) + bias, where every node receives the weighted features of the
  sources of its incoming edges (self loops in the list dropped, one self loop per node added, weights
  deg^(-1/2)(source) · deg^(-1/2)(target)), and differ only in the projected features h:

    the kernel folds the two small factors first,  h = x · (W_Bᵀ · W_Aᵀ),  the product with x computed block of
    rows by block of rows in a pallas_call (its operands narrowed to bf16, which is the identity at the ideal values);
    the reference applies them one after the other,  h = (x · W_Bᵀ) · W_Aᵀ.

  At the ideal values entry (i, j) of the first is  Σ_k x(i,k) · Σ_r W_B(r,k) · W_A(j,r)  and of the second
  Σ_r (Σ_k x(i,k) · W_B(r,k)) · W_A(j,r): one double sum, when the entries are real numbers — which the precondition
  (every float input finite) gives; on the extended reals a factor does not move across a sum in general. The
  propagation is the same host lines in both programs, so it is carried as one function applied to equal arguments and
  never opened. The idealization rewrote nothing, so that conjunct is trivial; the three frames are the generated
  frame runs (the reference's its generated run with the result dropped).
-/
import proofs.«173440_j41918880809105_2_alg».proof.Defs
import proofs.«173440_j41918880809105_2_alg».proof.Proof.Gen.Kernel
import proofs.«173440_j41918880809105_2_alg».proof.Proof.Gen.Kernel.Skeleton
import proofs.«173440_j41918880809105_2_alg».proof.Proof.Gen.Kernel.Launch
import proofs.«173440_j41918880809105_2_alg».proof.Proof.Gen.Kernel.Points
import proofs.«173440_j41918880809105_2_alg».proof.Proof.Gen.Kernel.Frame
import proofs.«173440_j41918880809105_2_alg».proof.Proof.Gen.KernelIdeal
import proofs.«173440_j41918880809105_2_alg».proof.Proof.Gen.KernelIdeal.Skeleton
import proofs.«173440_j41918880809105_2_alg».proof.Proof.Gen.KernelIdeal.Launch
import proofs.«173440_j41918880809105_2_alg».proof.Proof.Gen.KernelIdeal.Points
import proofs.«173440_j41918880809105_2_alg».proof.Proof.Gen.KernelIdeal.Frame
import proofs.«173440_j41918880809105_2_alg».proof.Proof.Gen.ReferenceIdeal
import proofs.«173440_j41918880809105_2_alg».proof.Proof.Gen.ReferenceIdeal.Run
import proofs.«173440_j41918880809105_2_alg».proof.Proof.Gen.Pre_finite_inputs
import proofs.«173440_j41918880809105_2_alg».proof.Proof.KernelRun
import proofs.«173440_j41918880809105_2_alg».proof.Proof.RefSide
import proofs.«173440_j41918880809105_2_alg».proof.Proof.Law
import proofs.«173440_j41918880809105_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result at the propagation of the reference's two-step projection of the launch
    contents: the reference by its run, the kernel because under the precondition its folded projection is that one. -/
theorem algebraic : Cert.algebraic_KernelIdeal_ReferenceIdeal := by
  intro m ρ m' ρ' hpre hagree
  refine ⟨fun c => Cert.Bridge.propagate (F := Ideal)
      (Cert.Bridge.projectTwice (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.KernelIdeal.Run.run m ρ)
    obtain ⟨hx, hb, ha⟩ := Cert.Bridge.real_entries _ _ _ _ _ (hpre c)
    unfold Cert.KernelIdeal.Run.result
    rw [Cert.Bridge.projection_agrees _ _ _ hx hb ha]
  · refine (θ_run Cert.ReferenceIdeal.defs _ _).mono (fun _ h c => ⟨(h c).1.trans ?_, (h c).2⟩)
      (Cert.ReferenceIdeal.Value.run (F := Ideal) m' ρ')
    rw [Cert.Bridge.reference_result, (hagree c).1, (hagree c).2.1, (hagree c).2.2.1, (hagree c).2.2.2.1,
      (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
